-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S256x128 : Shape := ⟨2, ![256, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S8192x128 .f32) (main_arg1 : FVec F S256x128 .f32) (main_arg2 : FVec F S256x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S8192x128 : Shape := ⟨2, ![8192, 128]⟩
abbrev S256x128 : Shape := ⟨2, ![256, 128]⟩
abbrev S_ : Shape := ⟨0, ![]⟩
abbrev S256 : Shape := ⟨1, ![256]⟩
abbrev S128x256 : Shape := ⟨2, ![128, 256]⟩
abbrev S256x256 : Shape := ⟨2, ![256, 256]⟩
abbrev S1x256 : Shape := ⟨2, ![1, 256]⟩
abbrev S8192x256 : Shape := ⟨2, ![8192, 256]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 21
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S_, .f32⟩
  | .hbm, ⟨9, _⟩ => ⟨S256, .f32⟩
  | .hbm, ⟨10, _⟩ => ⟨S128x256, .f32⟩
  | .hbm, ⟨11, _⟩ => ⟨S_, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S256x256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S1x256, .f32⟩
  | .hbm, ⟨20, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S256x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x128_S256_d1 : S256x128.ReducesTo [1] S256
  h_S_ : 0 < S_.numel
  transposes_S256x128_S128x256_1_0 : S256x128.Transposes [1, 0] S128x256
  bcast_S_S128x256 : S_.BroadcastsInDim S128x256 (![] : Fin 0 → Fin S128x256.rank)
  concatenates_S128x256_S128x256_S256x256_d0 : Shape.Concatenates [S128x256, S128x256] S256x256 0
  bcast_S_S256 : S_.BroadcastsInDim S256 (![] : Fin 0 → Fin S256.rank)
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  concatenates_S2048x128_S2048x128_S2048x256_d1 : Shape.Concatenates [S2048x128, S2048x128] S2048x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S256x128 : Shape := ⟨2, ![256, 128]⟩
abbrev S8192x1x128 : Shape := ⟨3, ![8192, 1, 128]⟩
abbrev S1x256x128 : Shape := ⟨3, ![1, 256, 128]⟩
abbrev S8192x256x128 : Shape := ⟨3, ![8192, 256, 128]⟩
abbrev S_ : Shape := ⟨0, ![]⟩
abbrev S8192x256 : Shape := ⟨2, ![8192, 256]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256x128, .f32⟩
  | .hbm, ⟨3, _⟩ => ⟨S8192x1x128, .f32⟩
  | .hbm, ⟨4, _⟩ => ⟨S1x256x128, .f32⟩
  | .hbm, ⟨5, _⟩ => ⟨S8192x256x128, .f32⟩
  | .hbm, ⟨6, _⟩ => ⟨S8192x256x128, .f32⟩
  | .hbm, ⟨7, _⟩ => ⟨S8192x256x128, .f32⟩
  | .hbm, ⟨8, _⟩ => ⟨S256x128, .f32⟩
  | .hbm, ⟨9, _⟩ => ⟨S1x256x128, .f32⟩
  | .hbm, ⟨10, _⟩ => ⟨S8192x256x128, .f32⟩
  | .hbm, ⟨11, _⟩ => ⟨S8192x256x128, .f32⟩
  | .hbm, ⟨12, _⟩ => ⟨S8192x256x128, .f32⟩
  | .hbm, ⟨13, _⟩ => ⟨S_, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x256, .f32⟩
  | .hbm, ⟨31, _⟩ => ⟨S8192x256, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S8192x128_S8192x1x128_0_2 : S8192x128.BroadcastsInDim S8192x1x128 (![0, 2] : Fin 2 → Fin S8192x1x128.rank)
  bcast_S256x128_S1x256x128_1_2 : S256x128.BroadcastsInDim S1x256x128 (![1, 2] : Fin 2 → Fin S1x256x128.rank)
  bcast_S8192x1x128_S8192x256x128_0_1_2 : S8192x1x128.BroadcastsInDim S8192x256x128 (![0, 1, 2] : Fin 3 → Fin S8192x256x128.rank)
  bcast_S1x256x128_S8192x256x128_0_1_2 : S1x256x128.BroadcastsInDim S8192x256x128 (![0, 1, 2] : Fin 3 → Fin S8192x256x128.rank)
  reducesTo_S8192x256x128_S8192x256_d2 : S8192x256x128.ReducesTo [2] S8192x256
  h_S_ : 0 < S_.numel
  bcast_S_S8192x256 : S_.BroadcastsInDim S8192x256 (![] : Fin 0 → Fin S8192x256.rank)
  reducesTo_S8192x256_S8192_d1 : S8192x256.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)

variable [Facts₀]

class Facts : Prop extends Facts₀ where

variable [Facts]
-- ==== Proof.Spec.lean ====
/-
  The function both programs compute. For a data row z_b (128 reals), centroids c_k and log-variances l_k
  (k < 256), the logit of row b against centroid k is  -1/2 · Σ_d (z_b,d - c_k,d)² / exp(l_k,d),  and the
  result is the softmax of each row of logits, in its numerically stable form: with M the row's maximum,
  exp(L_k - M) / Σ_k' exp(L_k' - M).  Both are stated here over the extended reals, operation by operation.
-/
import Idealize.ShloMosaic.PureOps.Ideal
import Idealize.ShloMosaic.PureOps.Ideal.Laws
import Idealize.ShloMosaic.Lib.ValueIdx

noncomputable section

namespace Cert.Mahal

open Idealize.ShloMosaic Idealize.ShloMosaic.ValueIdx

/-- The index type of a matrix with literal extents. -/
abbrev Idx2 (a b : ℕ) : Type := (⟨2, ![a, b]⟩ : Shape).Idx

/-- The f32 word of -∞ denotes the least extended real. -/
theorem ofBits_negInf : Ideal.ofBits .f32 0xFF800000#32 = ⊥ := by simp [Ideal.ofBits, Ideal.ieee]

/-- The maximum of a row of 256 extended reals (the fold of max from -∞). -/
def rowMax (L : Fin 256 → EReal) : EReal := (Finset.univ : Finset (Fin 256)).fold max ⊥ L

/-- The stable softmax of a row of 256 logits, at column k: exp(L k - M) / Σ_k' exp(L k' - M), M the row's maximum. -/
def rowSoftmax (L : Fin 256 → EReal) (k : Fin 256) : EReal :=
  Ideal.div (Ideal.exp (L k - rowMax L)) (∑ k' : Fin 256, Ideal.exp (L k' - rowMax L))

/-- The logit of data row b against centroid k, as the distance form spells it:
    -1/2 · (0 + Σ_d (z_b,d - c_k,d)·(z_b,d - c_k,d) / exp(l_k,d)). -/
def distLogit (z : Idx2 8192 128 → EReal) (c l : Idx2 256 128 → EReal) (b : Fin 8192) (k : Fin 256) : EReal :=
  Ideal.ofBits .f32 0xBF000000#32 * ((0 : EReal) + ∑ d : Fin 128,
    Ideal.div ((z (ix2 b d) - c (ix2 k d)) * (z (ix2 b d) - c (ix2 k d))) (Ideal.exp (l (ix2 k d))))

/-- The whole result: entry (b, k) is the softmax over k of row b's distance logits. -/
def result (z : Idx2 8192 128 → EReal) (c l : Idx2 256 128 → EReal) (i : Idx2 8192 256) : EReal :=
  rowSoftmax (fun k => distLogit z c l (i 0) k) (i 1)

theorem result_ix2 (z : Idx2 8192 128 → EReal) (c l : Idx2 256 128 → EReal) (b : Fin 8192) (k : Fin 256) :
    result z c l (ix2 b k) = rowSoftmax (fun k' => distLogit z c l b k') k := rfl

/-- The same logit in the fused form one matrix product computes: the squares of row b against the upper half of a
    [256, 256] weight matrix, the row itself against the lower half, plus a bias:
    Σ_{j<128} z_bj² · W_{j,k} + Σ_{j<128} z_bj · W_{128+j,k} + bias_k. -/
def fusedLogit (z : Idx2 8192 128 → EReal) (W : Idx2 256 256 → EReal) (bias : Idx2 1 256 → EReal) (b : Fin 8192) (k : Fin 256) : EReal :=
  ((∑ j : Fin 128, (z (ix2 b j) * z (ix2 b j)) * W (ix2 (⟨j.val, by have := j.isLt; omega⟩ : Fin 256) k))
      + ∑ j : Fin 128, z (ix2 b j) * W (ix2 (⟨128 + j.val, by have := j.isLt; omega⟩ : Fin 256) k))
    + bias (ix2 (0 : Fin 1) k)

/-- The softmax over k of row b's fused logits. -/
def fusedResult (z : Idx2 8192 128 → EReal) (W : Idx2 256 256 → EReal) (bias : Idx2 1 256 → EReal) (i : Idx2 8192 256) : EReal :=
  rowSoftmax (fun k => fusedLogit z W bias (i 0) k) (i 1)

theorem fusedResult_ix2 (z : Idx2 8192 128 → EReal) (W : Idx2 256 256 → EReal) (bias : Idx2 1 256 → EReal) (b : Fin 8192) (k : Fin 256) :
    fusedResult z W bias (ix2 b k) = rowSoftmax (fun k' => fusedLogit z W bias b k') k := rfl

end Cert.Mahal

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Softmax.lean ====
/-
  The kernel body's last seven operations, on a [2048, 256] block of logits: the row maximum (a lane reduction
  from -∞), kept as a column and broadcast back; the exponential of the difference; its row sum (a lane
  reduction from 0), kept as a column and broadcast back; the quotient. Read at entry (p, q) this is the stable
  softmax of row p at column q.
-/
import proofs.«136075_j89283780149361_2_alg».proof.Proof.Gen.KernelIdeal
import proofs.«136075_j89283780149361_2_alg».proof.Proof.Spec
import proofs.«136075_j89283780149361_2_alg».proof.Proof.LibColumn
import Idealize.ShloMosaic.PureOps.Ideal.Laws
import Idealize.ShloMosaic.Lib.ValueIdx
import Idealize.ShloMosaic.Lib.Pipeline.Value

noncomputable section

namespace Cert.Mahal

open Idealize.ShloMosaic Idealize.ShloMosaic.ValueIdx Cert.KernelIdeal Cert.LibColumn
open Cert.KernelIdeal.Facts₀

/-- The row softmax as the body's vector operations spell it, on a block of logits. -/
def softmaxVec (v9 : FVec Ideal S2048x256 .f32) : FVec Ideal S2048x256 .f32 :=
  have v10 : FVec Ideal S2048 .f32 := multiReduction .maximumf [1] S2048 v9 0xFF800000#32 reduces_S2048x256_S2048 (.inl rfl) rfl
  have v11 : FVec Ideal S2048x1 .f32 := shapeCast S2048x1 v10 shapeCasts_S2048_S2048x1
  have v12 : FVec Ideal S2048x256 .f32 := broadcastTo S2048x256 v11 broadcasts_S2048x1_S2048x256
  have v13 : FVec Ideal S2048x256 .f32 := subf v9 v12
  have v14 : FVec Ideal S2048x256 .f32 := exp v13
  have v15 : FVec Ideal S2048 .f32 := multiReduction .add [1] S2048 v14 0x00000000#32 reduces_S2048x256_S2048 (.inl rfl) rfl
  have v16 : FVec Ideal S2048x1 .f32 := shapeCast S2048x1 v15 shapeCasts_S2048_S2048x1
  have v17 : FVec Ideal S2048x256 .f32 := broadcastTo S2048x256 v16 broadcasts_S2048x1_S2048x256
  have v18 : FVec Ideal S2048x256 .f32 := divf v14 v17
  v18

/-- The inserted index of a lane reduction of a [2048, 256] block: row p, lane k. -/
theorem lift_eq (p : Fin 2048) (k : Fin 256) :
    (reduces_S2048x256_S2048 : S2048x256.Reduces [1] S2048).lift (ix1 p) k = ix2 p k :=
  funext fun a => Fin.ext (match a with | ⟨0, _⟩ => rfl | ⟨1, _⟩ => rfl)

/-- The lane maximum from -∞, at row p: the maximum of the row. -/
theorem laneMax_apply (v : FVec Ideal S2048x256 .f32) (p : Fin 2048) :
    multiReduction .maximumf [1] S2048 v 0xFF800000#32 reduces_S2048x256_S2048 (.inl rfl) rfl (ix1 p)
      = rowMax (fun k => v (ix2 p k)) := by
  refine (Ideal.multiReduction_maximumf_single v 0xFF800000#32 reduces_S2048x256_S2048 (.inl rfl) rfl (ix1 p)).trans ?_
  unfold rowMax
  rw [show FloatOps.ofBits (F := Ideal) .f32 0xFF800000#32 = (⊥ : EReal) from ofBits_negInf]
  exact congrArg (fun f : Fin 256 → EReal => (Finset.univ : Finset (Fin 256)).fold max ⊥ f) (funext fun k => congrArg v (lift_eq p k))

/-- The lane sum from 0, at row p: the sum of the row. -/
theorem laneSum_apply (v : FVec Ideal S2048x256 .f32) (p : Fin 2048) :
    multiReduction .add [1] S2048 v 0x00000000#32 reduces_S2048x256_S2048 (.inl rfl) rfl (ix1 p)
      = ∑ k : Fin 256, v (ix2 p k) := by
  refine (Ideal.multiReduction_add_single v 0x00000000#32 reduces_S2048x256_S2048 (.inl rfl) rfl (ix1 p)).trans ?_
  exact Finset.sum_congr rfl fun k _ => congrArg v (lift_eq p k)

/-- A row statistic kept as a column and broadcast back reads the statistic of the row. -/
theorem keepdims_apply (w : FVec Ideal S2048 .f32) (p : Fin 2048) (q : Fin 256) :
    broadcastTo S2048x256 (shapeCast S2048x1 w shapeCasts_S2048_S2048x1) broadcasts_S2048x1_S2048x256 (ix2 p q) = w (ix1 p) :=
  (broadcastTo_a1_ab_apply _ _ p q).trans (shapeCast_a_a1_apply w _ p 0)

/-- The body's softmax at entry (p, q) is the stable softmax of row p at column q. -/
theorem softmaxVec_apply (v9 : FVec Ideal S2048x256 .f32) (p : Fin 2048) (q : Fin 256) :
    softmaxVec v9 (ix2 p q) = rowSoftmax (fun k => v9 (ix2 p k)) q := by
  have hm : ∀ q' : Fin 256, broadcastTo S2048x256 (shapeCast S2048x1 (multiReduction .maximumf [1] S2048 v9 0xFF800000#32
      reduces_S2048x256_S2048 (.inl rfl) rfl) shapeCasts_S2048_S2048x1) broadcasts_S2048x1_S2048x256 (ix2 p q')
        = rowMax (fun k => v9 (ix2 p k)) := fun q' => (keepdims_apply _ p q').trans (laneMax_apply v9 p)
  have he : ∀ q' : Fin 256, exp (subf v9 (broadcastTo S2048x256 (shapeCast S2048x1 (multiReduction .maximumf [1] S2048 v9 0xFF800000#32
      reduces_S2048x256_S2048 (.inl rfl) rfl) shapeCasts_S2048_S2048x1) broadcasts_S2048x1_S2048x256)) (ix2 p q')
        = Ideal.exp (v9 (ix2 p q') - rowMax (fun k => v9 (ix2 p k))) := fun q' => by
    show Ideal.exp (v9 (ix2 p q') - _) = _
    rw [hm q']
  unfold softmaxVec rowSoftmax
  show Ideal.div _ _ = _
  rw [he q, keepdims_apply, laneSum_apply]
  exact congrArg (Ideal.div _) (Finset.sum_congr rfl fun k _ => he k)

end Cert.Mahal

end
-- ==== Proof.Logits.lean ====
/-
  The kernel body's first operations, on a [2048, 128] block x of data rows, the [256, 256] weight matrix w and the
  [1, 256] bias row: the block's squares and the block itself side by side, [x·x | x], one matrix product with w into a
  zero accumulator, and the bias added to every row. At entry (p, q) the product's 256-term contraction splits at
  column 128 into the squares against the upper half of w and the data against the lower half:
    Σ_{j<128} x_pj² · w_{j,q} + Σ_{j<128} x_pj · w_{128+j,q} + bias_q.
-/
import proofs.«136075_j89283780149361_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.Mahal

open Idealize.ShloMosaic Idealize.ShloMosaic.ValueIdx Cert.KernelIdeal
open Cert.KernelIdeal.Facts₀

/-- The block of logits as the body's vector operations spell it. -/
def logitsVec (v0 : FVec Ideal S2048x128 .f32) (v3 : FVec Ideal S256x256 .f32) (v6 : FVec Ideal S1x256 .f32) : FVec Ideal S2048x256 .f32 :=
  have v1 : FVec Ideal S2048x128 .f32 := mulf v0 v0
  have v2 : FVec Ideal S2048x256 .f32 := concatenate S2048x256 1 [⟨S2048x128, v1⟩, ⟨S2048x128, v0⟩] concatenates_S2048x128_S2048x128_S2048x256_d1
  have v4 : FVec Ideal S256x256 .f32 := shapeCast S256x256 v3 shapeCasts_S256x256_S256x256
  have cst : FVec Ideal S2048x256 .f32 := constant S2048x256 .f32 0x00000000#32
  have v5 : FVec Ideal S2048x256 .f32 := matmul dot_S2048x256_S256x256_S2048x256_1_0_0_1_n_n (some .fp32) v2 v4 cst
  have v7 : FVec Ideal S1x256 .f32 := shapeCast S1x256 v6 shapeCasts_S1x256_S1x256
  have v8 : FVec Ideal S2048x256 .f32 := broadcastTo S2048x256 v7 broadcasts_S1x256_S2048x256
  have v9 : FVec Ideal S2048x256 .f32 := addf v5 v8
  v9

/-- The product's contraction at entry (p, q), re-indexed by the contracted column j < 256: row p of the left factor
    against column q of the right. -/
theorem contraction_apply (lhs : FVec Ideal S2048x256 .f32) (rhs : FVec Ideal S256x256 .f32) (p : Fin 2048) (q : Fin 256) :
    (∑ k : (dot_S2048x256_S256x256_S2048x256_1_0_0_1_n_n).contr.Idx,
        lhs ((dot_S2048x256_S256x256_S2048x256_1_0_0_1_n_n).lhsIdx (ix2 p q) k) * rhs ((dot_S2048x256_S256x256_S2048x256_1_0_0_1_n_n).rhsIdx (ix2 p q) k))
      = ∑ j : Fin 256, lhs (ix2 p j) * rhs (ix2 j q) := by
  rw [← Equiv.sum_comp (contrEquiv1 dot_S2048x256_S256x256_S2048x256_1_0_0_1_n_n 256 rfl rfl).symm]
  refine Finset.sum_congr rfl fun j _ => ?_
  congr 2
  · funext a
    apply Fin.ext
    match a with
    | ⟨0, _⟩ => rfl
    | ⟨1, _⟩ =>
      exact (DotDims.lhsIdx_val_of_single dot_S2048x256_S256x256_S2048x256_1_0_0_1_n_n (cl := 1) rfl (ix2 p q) _).trans
        (contrEquiv1_symm_val dot_S2048x256_S256x256_S2048x256_1_0_0_1_n_n 256 rfl rfl j)
  · funext a
    apply Fin.ext
    match a with
    | ⟨0, _⟩ =>
      exact (DotDims.rhsIdx_val_of_single dot_S2048x256_S256x256_S2048x256_1_0_0_1_n_n (cr := 0) rfl (ix2 p q) _).trans
        (contrEquiv1_symm_val dot_S2048x256_S256x256_S2048x256_1_0_0_1_n_n 256 rfl rfl j)
    | ⟨1, _⟩ => rfl

/-- Two [2048, 128] blocks side by side read the left one at a column below 128 … -/
theorem sideBySide_left (a b : FVec Ideal S2048x128 .f32) (p : Fin 2048) (j : Fin 128) :
    concatenate S2048x256 1 [⟨S2048x128, a⟩, ⟨S2048x128, b⟩] concatenates_S2048x128_S2048x128_S2048x256_d1
      (ix2 p (⟨j.val, by have := j.isLt; omega⟩ : Fin 256)) = a (ix2 p j) :=
  concatenate_pair_apply_left (t := S2048x256) (s₁ := S2048x128) (s₂ := S2048x128) (1 : Fin 2) a b _ _ rfl (ix2 p j)
    (fun c => match c with | ⟨0, _⟩ => rfl | ⟨1, _⟩ => rfl)

/-- … and the right one at column 128 + j. -/
theorem sideBySide_right (a b : FVec Ideal S2048x128 .f32) (p : Fin 2048) (j : Fin 128) :
    concatenate S2048x256 1 [⟨S2048x128, a⟩, ⟨S2048x128, b⟩] concatenates_S2048x128_S2048x128_S2048x256_d1
      (ix2 p (⟨128 + j.val, by have := j.isLt; omega⟩ : Fin 256)) = b (ix2 p j) :=
  concatenate_pair_apply_right (t := S2048x256) (s₁ := S2048x128) (s₂ := S2048x128) (1 : Fin 2) a b _ _ rfl rfl (ix2 p j)
    (fun c hc => match c, hc with | ⟨0, _⟩, _ => rfl | ⟨1, _⟩, hc => absurd rfl hc)
    (show j.val + 128 = 128 + j.val from Nat.add_comm _ _)

/-- A sum over 256 columns is the sum over the first 128 plus the sum over the last 128. -/
theorem sum_halves {M : Type*} [AddCommMonoid M] (f : Fin 256 → M) :
    ∑ j : Fin 256, f j = (∑ j : Fin 128, f ⟨j.val, by have := j.isLt; omega⟩) + ∑ j : Fin 128, f ⟨128 + j.val, by have := j.isLt; omega⟩ :=
  (Fin.sum_univ_add (a := 128) (b := 128) f).trans (congrArg₂ (· + ·)
    (Finset.sum_congr rfl fun j _ => congrArg f (Fin.ext rfl)) (Finset.sum_congr rfl fun j _ => congrArg f (Fin.ext rfl)))

/-- The block of logits at entry (p, q). -/
theorem logitsVec_apply (v0 : FVec Ideal S2048x128 .f32) (v3 : FVec Ideal S256x256 .f32) (v6 : FVec Ideal S1x256 .f32)
    (p : Fin 2048) (q : Fin 256) :
    logitsVec v0 v3 v6 (ix2 p q)
      = ((∑ j : Fin 128, (v0 (ix2 p j) * v0 (ix2 p j)) * v3 (ix2 (⟨j.val, by have := j.isLt; omega⟩ : Fin 256) q))
          + ∑ j : Fin 128, v0 (ix2 p j) * v3 (ix2 (⟨128 + j.val, by have := j.isLt; omega⟩ : Fin 256) q))
        + v6 (ix2 (0 : Fin 1) q) := by
  unfold logitsVec
  show FloatOps.matmul _ _ _ _ _ (ix2 p q) + broadcastTo _ _ _ (ix2 p q) = _
  refine congrArg₂ (· + ·) ?_ ?_
  · refine (Ideal.matmul_constant_zero_apply _ _ _ _ (ix2 p q)).trans ?_
    refine (contraction_apply _ _ p q).trans ?_
    rw [shapeCast_self]
    refine (sum_halves _).trans (congrArg₂ (· + ·) ?_ ?_)
    · exact Finset.sum_congr rfl fun j _ => congrArg (· * _) (sideBySide_left (mulf v0 v0) v0 p j)
    · exact Finset.sum_congr rfl fun j _ => congrArg (· * _) (sideBySide_right (mulf v0 v0) v0 p j)
  · refine (broadcastTo_1b_ab_apply _ _ p q).trans ?_
    rw [shapeCast_self]

end Cert.Mahal

end
-- ==== Proof.Weights.lean ====
/-
  What the kernel's weight matrix and bias row hold when the region is entered. From the centroids c and the
  log-variances l (both [256, 128]) the host operations before the region form e = exp(-l), the [256, 256] matrix whose
  upper half is -1/2 · eᵀ and whose lower half is (c · e)ᵀ, and the [1, 256] row -1/2 · (0 + Σ_d c·c·e). Entry by entry:
    W_{j,k} = -1/2 · exp(-l_kj),   W_{128+j,k} = c_kj · exp(-l_kj),   bias_k = -1/2 · (0 + Σ_d c_kd · c_kd · exp(-l_kd)).
-/
import proofs.«136075_j89283780149361_2_alg».proof.Proof.Gen.KernelIdeal.Frame
import proofs.«136075_j89283780149361_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.Mahal

open Idealize.ShloMosaic Idealize.ShloMosaic.TcCoe Idealize.SL.Sem Idealize.ShloMosaic.ValueIdx Idealize.ShloMosaic.StableHlo
open Cert.KernelIdeal

/-- The weight matrix as the host operations spell it. -/
def weightTerm (c l : FVec Ideal S256x128 .f32) : FVec Ideal S256x256 .f32 :=
  concatenate S256x256 0
    [⟨S128x256, mulf (broadcastInDim S128x256 ![] Facts₀.bcast_S_S128x256 (constant (F := Ideal) S_ .f32 0xBF000000#32))
        (transpose S128x256 [1, 0] (Host.exp (Host.negf l)) Facts₀.transposes_S256x128_S128x256_1_0)⟩,
     ⟨S128x256, transpose S128x256 [1, 0] (mulf c (Host.exp (Host.negf l))) Facts₀.transposes_S256x128_S128x256_1_0⟩]
    Facts₀.concatenates_S128x256_S128x256_S256x256_d0

/-- The bias row as the host operations spell it. -/
def biasTerm (c l : FVec Ideal S256x128 .f32) : FVec Ideal S1x256 .f32 :=
  shapeCast S1x256
    (mulf (broadcastInDim S256 ![] Facts₀.bcast_S_S256 (constant (F := Ideal) S_ .f32 0xBF000000#32))
      (Host.reduceAdd (mulf (mulf c c) (Host.exp (Host.negf l))) (constant (F := Ideal) S_ .f32 0x00000000#32)
        Facts₀.reducesTo_S256x128_S256_d1 Facts₀.h_S_))
    Facts₀.shapeCasts_S256_S1x256

section Region
variable (m : (ℓ : Loc nD τ sig) → Buf (Elt Ideal) ℓ)

/-- The region finds the weight matrix at the host operations' term of the centroids and log-variances as launched. -/
theorem V_weight (c : Dev nD) :
    (Gen.V m c main_v10 : S256x256.Idx → EReal)
      = weightTerm (m ((c : Thread nD τ).loc main_arg1)) (m ((c : Thread nD τ).loc main_arg2)) := by
  dsimp only [Gen.V, Gen.hostOps0]
  after_results
  rfl

/-- The region finds the bias row at the host operations' term of the centroids and log-variances as launched. -/
theorem V_bias (c : Dev nD) :
    (Gen.V m c main_v13 : S1x256.Idx → EReal)
      = biasTerm (m ((c : Thread nD τ).loc main_arg1)) (m ((c : Thread nD τ).loc main_arg2)) := by
  dsimp only [Gen.V, Gen.hostOps0]
  after_results
  rfl

end Region

variable (c l : FVec Ideal S256x128 .f32)

/-- A scalar constant broadcast to a matrix reads the constant. -/
theorem splat_apply {s : Shape} (h : S_.BroadcastsInDim s (![] : Fin 0 → Fin s.rank)) (b : BitVec 32) (i : s.Idx) :
    broadcastInDim s ![] h (constant (F := Ideal) S_ .f32 b) i = Ideal.ofBits .f32 b :=
  broadcastInDim_apply _ h _ i ix0 (fun a => a.elim0)

/-- Two [128, 256] blocks stacked read the upper one at a row below 128 … -/
theorem stacked_upper (a b : FVec Ideal S128x256 .f32) (j : Fin 128) (k : Fin 256) :
    concatenate S256x256 0 [⟨S128x256, a⟩, ⟨S128x256, b⟩] Facts₀.concatenates_S128x256_S128x256_S256x256_d0
      (ix2 (⟨j.val, by have := j.isLt; omega⟩ : Fin 256) k) = a (ix2 j k) :=
  concatenate_pair_apply_left (t := S256x256) (s₁ := S128x256) (s₂ := S128x256) (0 : Fin 2) a b _ _ rfl (ix2 j k)
    (fun i => match i with | ⟨0, _⟩ => rfl | ⟨1, _⟩ => rfl)

/-- … and the lower one at row 128 + j. -/
theorem stacked_lower (a b : FVec Ideal S128x256 .f32) (j : Fin 128) (k : Fin 256) :
    concatenate S256x256 0 [⟨S128x256, a⟩, ⟨S128x256, b⟩] Facts₀.concatenates_S128x256_S128x256_S256x256_d0
      (ix2 (⟨128 + j.val, by have := j.isLt; omega⟩ : Fin 256) k) = b (ix2 j k) :=
  concatenate_pair_apply_right (t := S256x256) (s₁ := S128x256) (s₂ := S128x256) (0 : Fin 2) a b _ _ rfl rfl (ix2 j k)
    (fun i hi => match i, hi with | ⟨0, _⟩, hi => absurd rfl hi | ⟨1, _⟩, _ => rfl)
    (show j.val + 128 = 128 + j.val from Nat.add_comm _ _)

/-- The upper half of the weight matrix. -/
theorem weight_upper (j : Fin 128) (k : Fin 256) :
    weightTerm c l (ix2 (⟨j.val, by have := j.isLt; omega⟩ : Fin 256) k)
      = Ideal.ofBits .f32 0xBF000000#32 * Ideal.exp (-(l (ix2 k j))) := by
  unfold weightTerm
  refine (stacked_upper _ _ j k).trans ?_
  show (_ : EReal) * _ = _
  refine congrArg₂ (· * ·) (splat_apply Facts₀.bcast_S_S128x256 0xBF000000#32 (ix2 j k)) ?_
  exact (transpose_ix2_apply (Host.exp (Host.negf l)) Facts₀.transposes_S256x128_S128x256_1_0 j k).trans rfl

/-- The lower half of the weight matrix. -/
theorem weight_lower (j : Fin 128) (k : Fin 256) :
    weightTerm c l (ix2 (⟨128 + j.val, by have := j.isLt; omega⟩ : Fin 256) k)
      = c (ix2 k j) * Ideal.exp (-(l (ix2 k j))) := by
  unfold weightTerm
  refine (stacked_lower _ _ j k).trans ?_
  exact (transpose_ix2_apply (mulf c (Host.exp (Host.negf l))) Facts₀.transposes_S256x128_S128x256_1_0 j k).trans rfl

/-- The inserted index of the sum over the last axis of a [256, 128] array: row k, column d. -/
theorem lift_row (k : Fin 256) (d : Fin 128) :
    (by decide : S256x128.Reduces [1] S256).lift (ix1 k) d = ix2 k d :=
  funext fun a => Fin.ext (match a with | ⟨0, _⟩ => rfl | ⟨1, _⟩ => rfl)

/-- The host's sum of a [256, 128] array over its last axis, from 0. -/
theorem rowSum_apply (x : FVec Ideal S256x128 .f32) (k : Fin 256) :
    Host.reduceAdd x (constant (F := Ideal) S_ .f32 0x00000000#32) Facts₀.reducesTo_S256x128_S256_d1 Facts₀.h_S_ (ix1 k)
      = (0 : EReal) + ∑ d : Fin 128, x (ix2 k d) := by
  simp only [Host.reduceAdd, Ideal.hostReduceAdd_def]
  rw [Ideal.hostReduceAdd_single Facts₀.reducesTo_S256x128_S256_d1 (by decide)]
  refine congrArg₂ (· + ·) Ideal.ofBits_zero_f32 (Finset.sum_congr rfl fun d _ => congrArg x (lift_row k d))

/-- The bias row. -/
theorem bias_apply (k : Fin 256) :
    biasTerm c l (ix2 (0 : Fin 1) k)
      = Ideal.ofBits .f32 0xBF000000#32 * ((0 : EReal) + ∑ d : Fin 128, (c (ix2 k d) * c (ix2 k d)) * Ideal.exp (-(l (ix2 k d)))) := by
  unfold biasTerm
  refine (shapeCast_a_1a_apply _ _ (0 : Fin 1) k).trans ?_
  show (_ : EReal) * _ = _
  refine congrArg₂ (· * ·) (splat_apply Facts₀.bcast_S_S256 0xBF000000#32 (ix1 k)) ?_
  exact rowSum_apply (mulf (mulf c c) (Host.exp (Host.negf l))) k

end Cert.Mahal

end
-- ==== Proof.KernelValue.lean ====
/-
  The kernel's result array as one function of the arrays the region finds. Grid point t (of 4) stages rows
  2048·t … 2048·t + 2047 of the data, the whole weight matrix and the whole bias row, and writes back rows
  2048·t … 2048·t + 2047 of the result: the softmax of the block's fused logits. The four row blocks tile the
  [8192, 256] result, so after the run it holds, at every entry (b, k), the softmax over k of row b's fused logits.
-/
import proofs.«136075_j89283780149361_2_alg».proof.Proof.Gen.KernelIdeal.Value
import proofs.«136075_j89283780149361_2_alg».proof.Proof.Spec
import proofs.«136075_j89283780149361_2_alg».proof.Proof.Softmax
import proofs.«136075_j89283780149361_2_alg».proof.Proof.Logits
import proofs.«136075_j89283780149361_2_alg».proof.Proof.Weights
import Idealize.ShloMosaic.Lib.Pipeline.Value

noncomputable section

namespace Cert.Mahal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The body's stored value: the softmax of the block of fused logits. -/
theorem payload_eq (x0 : FVec Ideal S2048x128 .f32) (x1 : FVec Ideal S256x256 .f32) (x2 : FVec Ideal S1x256 .f32) :
    k0_pay1 (F := Ideal) x0 x1 x2 = softmaxVec (logitsVec x0 x1 x2) := rfl

/-- The index maps over the four grid points: the data and the result move down one row block per point; the weight
    matrix and the bias row stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of one block: if the data block x0 is rows r … r + 2047 of z, and the other two blocks are W and the bias
    whole, then the body's value at block entry y is the fused result at array entry (r + y₀, y₁). -/
theorem block_entry (x0 : FVec Ideal S2048x128 .f32) (x1 : FVec Ideal S256x256 .f32) (x2 : FVec Ideal S1x256 .f32)
    (z : Idx2 8192 128 → EReal) (W : Idx2 256 256 → EReal) (bias : Idx2 1 256 → EReal) (r : ℕ)
    (h0 : ∀ (p : Fin 2048) (j : Fin 128) (i : Idx2 8192 128), (i 0).val = r + p.val → (i 1).val = j.val → x0 (ix2 p j) = z i)
    (h1 : ∀ y, x1 y = W y) (h2 : ∀ y, x2 y = bias y)
    (y : S2048x256.Idx) (i : Idx2 8192 256) (hi0 : (i 0).val = r + (y 0).val) (hi1 : (i 1).val = (y 1).val) :
    softmaxVec (logitsVec x0 x1 x2) y = fusedResult z W bias i := by
  obtain ⟨p, q, rfl⟩ : ∃ (p : Fin 2048) (q : Fin 256), y = ix2 p q := ⟨y 0, y 1, eq_ix2 y⟩
  obtain ⟨b, k, rfl⟩ : ∃ (b : Fin 8192) (k : Fin 256), i = ix2 b k := ⟨i 0, i 1, eq_ix2 i⟩
  have hb : b.val = r + p.val := hi0
  obtain rfl : k = q := Fin.ext hi1
  rw [softmaxVec_apply, fusedResult_ix2]
  refine congrArg (fun L : Fin 256 → EReal => rowSoftmax L k) (funext fun k' => ?_)
  rw [logitsVec_apply]
  unfold fusedLogit
  have hx : ∀ j : Fin 128, x0 (ix2 p j) = z (ix2 b j) := fun j => h0 p j (ix2 b j) hb rfl
  simp only [h1, h2, hx]

/-- What point t writes back is block t of the fused result of the arrays as the region finds them. -/
theorem flushed_eq (c : Dev nD) (t : Fin cfg0.N) :
    (dats m 0 c).flushed 3 t = ((cfg0.win 3).blk t).view.read (Elt Ideal)
      (fusedResult (V m c main_arg0) (V m c main_v10) (V m c main_v13)) := by
  rw [flushed3]
  unfold out0_3
  rw [View.canon_unit_zero zero_offsets]
  simp only [View.ld_unit_zero (S := S2048x128) zero_offsets, View.ld_unit_zero (S := S256x256) zero_offsets,
    View.ld_unit_zero (S := S1x256) zero_offsets]
  rw [payload_eq]
  obtain ⟨e00, e01, e10, e11, e20, e21, e30, e31⟩ := index_facts t
  funext y
  show softmaxVec (logitsVec (iblk m c 0 t) (iblk m c 1 t) (iblk m c 2 t)) y
    = fusedResult (V m c main_arg0) (V m c main_v10) (V m c main_v13) (((cfg0.win 3).blk t).view.emb y)
  refine block_entry (iblk m c 0 t) (iblk m c 1 t) (iblk m c 2 t) (V m c main_arg0) (V m c main_v10) (V m c main_v13)
    (t.val * 2048) ?_ ?_ ?_ y (((cfg0.win 3).blk t).view.emb y) ?_ ?_
  · intro p j i hi0 hi1
    show V m c main_arg0 (((cfg0.win 0).blk t).view.emb (ix2 p j)) = V m c main_arg0 i
    refine congrArg _ (funext fun a => Fin.ext ?_)
    match a with
    | ⟨0, _⟩ => show win0_0.index t (0 : Fin 2) * 2048 + 1 * p.val = (i 0).val; omega
    | ⟨1, _⟩ => show win0_0.index t (1 : Fin 2) * 128 + 1 * j.val = (i 1).val; omega
  · intro y'
    show V m c main_v10 (((cfg0.win 1).blk t).view.emb y') = V m c main_v10 y'
    refine congrArg _ (funext fun a => Fin.ext ?_)
    match a with
    | ⟨0, _⟩ => show win0_1.index t (0 : Fin 2) * 256 + 1 * (y' 0).val = (y' 0).val; omega
    | ⟨1, _⟩ => show win0_1.index t (1 : Fin 2) * 256 + 1 * (y' 1).val = (y' 1).val; omega
  · intro y'
    show V m c main_v13 (((cfg0.win 2).blk t).view.emb y') = V m c main_v13 y'
    refine congrArg _ (funext fun a => Fin.ext ?_)
    match a with
    | ⟨0, _⟩ => show win0_2.index t (0 : Fin 2) * 1 + 1 * (y' 0).val = (y' 0).val; omega
    | ⟨1, _⟩ => show win0_2.index t (1 : Fin 2) * 256 + 1 * (y' 1).val = (y' 1).val; omega
  · show win0_3.index t (0 : Fin 2) * 2048 + 1 * (y 0).val = t.val * 2048 + (y 0).val; omega
  · show win0_3.index t (1 : Fin 2) * 256 + 1 * (y 1).val = (y 1).val; omega

/-- An index of the result is in point t's block iff each coordinate is in the block's range on its axis. -/
theorem mem_block (t : Fin cfg0.N) (i : S8192x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v14).slice (win0_3.rect t)).set ↔ _
  rw [View.set_slice_whole, Rect.mem_set_unit]
  exact Iff.rfl

/-- The four row blocks tile the result: row b is in the block of point b / 2048. -/
theorem blocks_cover (i : S8192x256.Idx) :
    ∃ t : Fin cfg0.N, (cfg0.win 3).flush t = true ∧ i ∈ ((cfg0.win 3).blk t).view.set := by
  have hN : cfg0.N = 4 := N_0
  have hi0 : (i 0).val < 8192 := (i 0).isLt
  have hi1 : (i 1).val < 256 := (i 1).isLt
  have ht : (i 0).val / 2048 < cfg0.N := by rw [hN]; omega
  obtain ⟨-, -, -, -, -, -, e30, e31⟩ := index_facts ⟨(i 0).val / 2048, ht⟩
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e30]
    show (i 0).val / 2048 * 2048 ≤ (i 0).val ∧ (i 0).val < (i 0).val / 2048 * 2048 + 2048
    omega
  | ⟨1, _⟩ =>
    show win0_3.index ⟨(i 0).val / 2048, ht⟩ (1 : Fin 2) * 256 ≤ (i 1).val
      ∧ (i 1).val < win0_3.index ⟨(i 0).val / 2048, ht⟩ (1 : Fin 2) * 256 + 256
    rw [e31]
    omega

/-- The result array after the run: the fused result of the arrays as the region finds them. -/
theorem final_array (c : Dev nD) :
    (dats m 0 c).arrAt 3 cfg0.N = fusedResult (V m c main_arg0) (V m c main_v10) (V m c main_v13) :=
  (dats m 0 c).arrAt_eq_of_cover 3 _ (fun t _ => flushed_eq m c t) blocks_cover

/-- The kernel's run, read: the result array at the fused result of the data as launched and of the weight matrix and
    bias row the host operations build from the centroids and log-variances as launched; the arguments unchanged. -/
theorem kernel_run : θ_run defs (onTc (τ := τ) (main (F := Ideal))) ⟨m, fun _ => 0, ρ⟩ fun r => ∀ c : Dev nD,
      r.2.mem ((c : Thread nD τ).loc main_v14)
        = fusedResult (m ((c : Thread nD τ).loc main_arg0))
            (weightTerm (m ((c : Thread nD τ).loc main_arg1)) (m ((c : Thread nD τ).loc main_arg2)))
            (biasTerm (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final_array m c).trans (by
      rw [V_main_arg0, V_weight, V_bias])), (h c).2⟩)
    (run_blocks m ρ)

end Cert.Mahal

end
-- ==== Proof.RefValue.lean ====
/-
  The reference program read as the specification. Its logits: the data rows and the centroids broadcast to
  [8192, 256, 128], their difference squared, divided by exp of the log-variance, summed over the last axis from 0 and
  scaled by -1/2: entry (b, k) is the distance logit of row b against centroid k. Its softmax: the row maximum (a
  reduction from -∞, then a maximum with -∞, which changes nothing), the exponential of the difference, its row sum
  from 0, and the quotient: the stable softmax of the row.
-/
import proofs.«136075_j89283780149361_2_alg».proof.Proof.Gen.ReferenceIdeal.Read
import proofs.«136075_j89283780149361_2_alg».proof.Proof.Spec

noncomputable section

namespace Cert.Mahal

open Idealize.ShloMosaic Idealize.ShloMosaic.ValueIdx Cert.ReferenceIdeal Cert.ReferenceIdeal.Read

variable (z : FVec Ideal S8192x128 .f32) (c l : FVec Ideal S256x128 .f32)

/-! ### The composed index maps at explicit coordinates -/

theorem idx_z (b : Fin 8192) (k : Fin 256) (d : Fin 128) :
    idx_main_v0 (idx_main_v2 (idx_main_v10 (ix2 b k) d)) = ix2 b d :=
  funext fun a => Fin.ext (match a with | ⟨0, _⟩ => rfl | ⟨1, _⟩ => rfl)

theorem idx_c (b : Fin 8192) (k : Fin 256) (d : Fin 128) :
    idx_main_v1 (idx_main_v3 (idx_main_v10 (ix2 b k) d)) = ix2 k d :=
  funext fun a => Fin.ext (match a with | ⟨0, _⟩ => rfl | ⟨1, _⟩ => rfl)

theorem idx_l (b : Fin 8192) (k : Fin 256) (d : Fin 128) :
    idx_main_v6 (idx_main_v8 (idx_main_v10 (ix2 b k) d)) = ix2 k d :=
  funext fun a => Fin.ext (match a with | ⟨0, _⟩ => rfl | ⟨1, _⟩ => rfl)

theorem idx_row (b : Fin 8192) (k : Fin 256) : idx_main_v16 (idx_main_v17 (ix2 b k)) = ix1 b :=
  funext fun a => Fin.ext (match a with | ⟨0, _⟩ => rfl)

theorem idx_row' (b : Fin 8192) (k : Fin 256) : idx_main_v21 (idx_main_v22 (ix2 b k)) = ix1 b :=
  funext fun a => Fin.ext (match a with | ⟨0, _⟩ => rfl)

theorem idx_lane (b : Fin 8192) (k : Fin 256) : idx_main_v20 (ix1 b) k = ix2 b k :=
  funext fun a => Fin.ext (match a with | ⟨0, _⟩ => rfl | ⟨1, _⟩ => rfl)

/-! ### The logits -/

/-- The reference's scaled distance sums are the distance logits. -/
theorem ref_logit (b : Fin 8192) (k : Fin 256) :
    val_main_v12 (F := Ideal) z c l (ix2 b k) = distLogit z c l b k := by
  rw [val_main_v12_apply, val_main_v11_apply, val_main_cst_0_apply, val_main_v10_apply, val_main_cst_apply]
  unfold distLogit
  simp only [val_main_v9_apply, val_main_v7_apply, val_main_v4_apply, val_main_v2_apply, val_main_v0_apply, val_main_v3_apply,
    val_main_v1_apply, val_main_v8_apply, val_main_v6_apply, val_main_v5_apply, idx_z, idx_c, idx_l,
    Ideal.mulf_def, Ideal.ofBits_def, Ideal.hostDivf_def, Ideal.subf_def, Ideal.hostUnary_exp_def, Ideal.ofBits_zero_f32]

/-! ### The softmax -/

/-- From -∞ the host's maximum reduction along a row of a [8192, 256] array is the row's maximum. -/
theorem host_rowMax (x : FVec Ideal S8192x256 .f32) (b : Fin 8192) :
    Host.reduce FloatOps.maximumf x (constant (F := Ideal) S_ .f32 0xFF800000#32) Facts₀.reducesTo_S8192x256_S8192_d1 Facts₀.h_S_ (ix1 b)
      = rowMax (fun k => x (ix2 b k)) := by
  rw [Host.reduce_eq_fold_single FloatOps.maximumf x _ Facts₀.reducesTo_S8192x256_S8192_d1 (by decide : S8192x256.Reduces [1] S8192) Facts₀.h_S_]
  show Finset.fold max (Ideal.ofBits .f32 0xFF800000#32) _ _ = _
  rw [ofBits_negInf]
  unfold rowMax
  exact congrArg (fun f : Fin 256 → EReal => (Finset.univ : Finset (Fin 256)).fold max ⊥ f)
    (funext fun k => congrArg x (funext fun a => Fin.ext (match a with | ⟨0, _⟩ => rfl | ⟨1, _⟩ => rfl)))

/-- The reference's row maximum: the reduction from -∞ over the row, then the maximum with -∞. -/
theorem ref_max (b : Fin 8192) :
    val_main_v15 (F := Ideal) z c l (ix1 b) = rowMax (fun k => val_main_v12 (F := Ideal) z c l (ix2 b k)) := by
  have h13 : val_main_v13 (F := Ideal) z c l (ix1 b) = rowMax (fun k => val_main_v12 (F := Ideal) z c l (ix2 b k)) :=
    host_rowMax (val_main_v12 (F := Ideal) z c l) b
  rw [val_main_v15_apply, val_main_v14_apply, val_main_cst_2_apply, h13]
  show max (Ideal.ofBits .f32 0xFF800000#32) _ = _
  rw [ofBits_negInf, max_eq_right bot_le]

/-- The exponential of a logit less its row's maximum. -/
theorem ref_exp (b : Fin 8192) (k : Fin 256) :
    val_main_v19 (F := Ideal) z c l (ix2 b k)
      = Ideal.exp (val_main_v12 (F := Ideal) z c l (ix2 b k) - rowMax (fun k' => val_main_v12 (F := Ideal) z c l (ix2 b k'))) := by
  rw [val_main_v19_apply, val_main_v18_apply, val_main_v17_apply, val_main_v16_apply, idx_row, ref_max]
  rfl

/-- The reference's result at entry (b, k) is the stable softmax of its row of logits. -/
theorem ref_softmax (b : Fin 8192) (k : Fin 256) :
    val_main_v23 (F := Ideal) z c l (ix2 b k) = rowSoftmax (fun k' => val_main_v12 (F := Ideal) z c l (ix2 b k')) k := by
  rw [val_main_v23_apply, val_main_v22_apply, val_main_v21_apply, idx_row', val_main_v20_apply, val_main_cst_3_apply, ref_exp]
  unfold rowSoftmax
  simp only [Ideal.hostDivf_def, Ideal.ofBits_def, Ideal.ofBits_zero_f32, zero_add, idx_lane, ref_exp]

/-- The reference computes the specification. -/
theorem ref_result : val_main_v23 (F := Ideal) z c l = result z c l := by
  funext i
  obtain ⟨b, k, rfl⟩ : ∃ (b : Fin 8192) (k : Fin 256), i = ix2 b k := ⟨i 0, i 1, eq_ix2 i⟩
  rw [ref_softmax, result_ix2]
  exact congrArg (fun L : Fin 256 → EReal => rowSoftmax L k) (funext fun k' => ref_logit z c l b k')

end Cert.Mahal

end
-- ==== Proof.CompleteSquare.lean ====
import Idealize.ShloMosaic.PureOps.Ideal
import Idealize.ShloMosaic.PureOps.Ideal.Laws

/-!
  Completing the square on the extended reals, for real (finite) data.

  With `h = -1/2` and `e_j = exp (-l_j) = 1 / exp (l_j)`,

    Σ_j z_j² (h e_j) + Σ_j z_j (c_j e_j) + h Σ_j c_j² e_j  =  h Σ_j (z_j - c_j)² / exp (l_j),

  because `(z - c)² = z² - 2 z c + c²` and `h · (-2) = 1`.  Every term is the image of a real
  number, and the embedding of the reals in the extended reals preserves sums, products,
  differences and negation, so the identity is proved over the reals (where `ring` applies: the
  extended reals are not a ring) and then transported.
-/

noncomputable section

namespace Cert.Mahal

open Idealize.ShloMosaic

/-- The f32 word 0xBF000000 denotes the real -1/2: sign bit 1, exponent field 126, fraction 0,
    so the value is `-(2^23) · 2^(126 - 127 - 23) = -2^(-1)`. -/
theorem negHalf_eq : Ideal.ofBits .f32 0xBF000000#32 = ((-1 / 2 : ℝ) : EReal) := by
  simp [Ideal.ofBits, Ideal.ieee, -EReal.coe_mul]
  norm_num

/-- The embedding of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a real by `exp l` (never zero) is multiplying by the real `1 / exp l`. -/
theorem div_exp_coe (x l : ℝ) :
    Ideal.div (x : EReal) ((Real.exp l : ℝ) : EReal) = ((x * (1 / Real.exp l) : ℝ) : EReal) := by
  rw [Ideal.div_coe (Real.exp_pos l).ne', ← EReal.coe_mul]

/-- Completing the square over the reals: termwise,
    `z² (h e) + z (c e) + h (c² e) = h ((z - c)² e)` with `h = -1/2`, `e = exp (-l) = 1 / exp l`. -/
theorem real_law {n : ℕ} (z c l : Fin n → ℝ) :
    (∑ j : Fin n, (z j * z j) * ((-1 / 2) * Real.exp (-(l j))))
      + (∑ j : Fin n, z j * (c j * Real.exp (-(l j))))
      + (-1 / 2) * (∑ j : Fin n, (c j * c j) * Real.exp (-(l j)))
    = (-1 / 2) * (∑ j : Fin n, ((z j - c j) * (z j - c j)) * (1 / Real.exp (l j))) := by
  simp only [Finset.mul_sum, ← Finset.sum_add_distrib]
  refine Finset.sum_congr rfl fun j _ => ?_
  rw [Real.exp_neg, one_div]
  ring

/-- Completing the square, for real data: with h = -1/2 and e_j = exp(-l_j) = 1 / exp(l_j),
    Σ_j z_j² (h e_j) + Σ_j z_j (c_j e_j) + h (0 + Σ_j c_j² e_j) = h (0 + Σ_j (z_j - c_j)² / exp(l_j)). -/
theorem logit_law {n : ℕ} (z c l : Fin n → ℝ) :
    (∑ j : Fin n, ((z j : EReal) * (z j : EReal)) * (Ideal.ofBits .f32 0xBF000000#32 * Ideal.exp (-(l j : EReal))))
      + (∑ j : Fin n, (z j : EReal) * ((c j : EReal) * Ideal.exp (-(l j : EReal))))
      + Ideal.ofBits .f32 0xBF000000#32 * ((0 : EReal) + ∑ j : Fin n, ((c j : EReal) * (c j : EReal)) * Ideal.exp (-(l j : EReal)))
    = Ideal.ofBits .f32 0xBF000000#32 * ((0 : EReal) + ∑ j : Fin n,
        Ideal.div (((z j : EReal) - (c j : EReal)) * ((z j : EReal) - (c j : EReal))) (Ideal.exp (l j : EReal))) := by
  -- every term is the image of a real: move the embedding outwards, through the sums
  simp only [negHalf_eq, zero_add, ← EReal.coe_neg, Ideal.exp_coe, ← EReal.coe_sub, ← EReal.coe_mul,
    div_exp_coe, ← coe_sum, ← EReal.coe_add]
  -- what remains is the embedding applied to both sides of the real identity
  exact congrArg _ (real_law z c l)

end Cert.Mahal
-- ==== Proof.Bridge.lean ====
/-
  The two forms of a logit agree on real data. With the weight matrix and the bias row as the kernel's host
  operations build them — W_{j,k} = -1/2 · exp(-l_kj), W_{128+j,k} = c_kj · exp(-l_kj),
  bias_k = -1/2 · (0 + Σ_d c_kd² · exp(-l_kd)) — the fused logit of row b against centroid k is, by completing the
  square, the distance logit -1/2 · (0 + Σ_d (z_bd - c_kd)² / exp(l_kd)). The law distributes products over sums and
  uses exp(-l) = 1 / exp(l), so it needs every entry to be a real number.
-/
import proofs.«136075_j89283780149361_2_alg».proof.Proof.Spec
import proofs.«136075_j89283780149361_2_alg».proof.Proof.CompleteSquare

noncomputable section

namespace Cert.Mahal

open Idealize.ShloMosaic Idealize.ShloMosaic.ValueIdx

variable (z : Idx2 8192 128 → EReal) (c l : Idx2 256 128 → EReal) (W : Idx2 256 256 → EReal) (bias : Idx2 1 256 → EReal)

/-- On real data the fused logit is the distance logit. -/
theorem fused_eq_dist
    (hz : ∀ i, ∃ r : ℝ, z i = (r : EReal)) (hc : ∀ i, ∃ r : ℝ, c i = (r : EReal)) (hl : ∀ i, ∃ r : ℝ, l i = (r : EReal))
    (hU : ∀ (j : Fin 128) (k : Fin 256), W (ix2 (⟨j.val, by have := j.isLt; omega⟩ : Fin 256) k)
      = Ideal.ofBits .f32 0xBF000000#32 * Ideal.exp (-(l (ix2 k j))))
    (hL : ∀ (j : Fin 128) (k : Fin 256), W (ix2 (⟨128 + j.val, by have := j.isLt; omega⟩ : Fin 256) k)
      = c (ix2 k j) * Ideal.exp (-(l (ix2 k j))))
    (hB : ∀ k : Fin 256, bias (ix2 (0 : Fin 1) k)
      = Ideal.ofBits .f32 0xBF000000#32 * ((0 : EReal) + ∑ d : Fin 128, (c (ix2 k d) * c (ix2 k d)) * Ideal.exp (-(l (ix2 k d)))))
    (b : Fin 8192) (k : Fin 256) : fusedLogit z W bias b k = distLogit z c l b k := by
  choose zr hzr using hz
  choose cr hcr using hc
  choose lr hlr using hl
  unfold fusedLogit distLogit
  simp only [hU, hL, hB, hzr, hcr, hlr]
  exact logit_law (fun j => zr (ix2 b j)) (fun j => cr (ix2 k j)) (fun j => lr (ix2 k j))

/-- So the two results agree entry by entry. -/
theorem fusedResult_eq
    (hz : ∀ i, ∃ r : ℝ, z i = (r : EReal)) (hc : ∀ i, ∃ r : ℝ, c i = (r : EReal)) (hl : ∀ i, ∃ r : ℝ, l i = (r : EReal))
    (hU : ∀ (j : Fin 128) (k : Fin 256), W (ix2 (⟨j.val, by have := j.isLt; omega⟩ : Fin 256) k)
      = Ideal.ofBits .f32 0xBF000000#32 * Ideal.exp (-(l (ix2 k j))))
    (hL : ∀ (j : Fin 128) (k : Fin 256), W (ix2 (⟨128 + j.val, by have := j.isLt; omega⟩ : Fin 256) k)
      = c (ix2 k j) * Ideal.exp (-(l (ix2 k j))))
    (hB : ∀ k : Fin 256, bias (ix2 (0 : Fin 1) k)
      = Ideal.ofBits .f32 0xBF000000#32 * ((0 : EReal) + ∑ d : Fin 128, (c (ix2 k d) * c (ix2 k d)) * Ideal.exp (-(l (ix2 k d))))) :
    fusedResult z W bias = result z c l := by
  funext i
  obtain ⟨b, k, rfl⟩ : ∃ (b : Fin 8192) (k : Fin 256), i = ix2 b k := ⟨i 0, i 1, eq_ix2 i⟩
  rw [fusedResult_ix2, result_ix2]
  exact congrArg (fun L : Fin 256 → EReal => rowSoftmax L k)
    (funext fun k' => fused_eq_dist z c l W bias hz hc hl hU hL hB b k')

end Cert.Mahal

end
-- ==== Proof.FiniteInputs.lean ====
/-
  From the precondition "every float input is finite" to "every entry of each input array is a
  real number".  The precondition is the conjunction, over the three inputs, of
  `all (|x| < +∞)`: a reduction by `and` of the elementwise comparison of `|x|` against the
  constant whose bit pattern is that of `+∞`.  Read on the extended reals, `|x| = max x (-x)`,
  and `max x (-x) < ⊤` rules out both `x = ⊤` and `x = ⊥` (either gives `max x (-x) = ⊤`),
  so `x` is (the image of) a real number.
-/
import proofs.«136075_j89283780149361_2_alg».proof.Pre_finite_inputs
import proofs.«136075_j89283780149361_2_alg».proof.Proof.Gen.Pre_finite_inputs
import Idealize.ShloMosaic.PureOps.Ideal.Laws
import Idealize.ShloMosaic.Lib.ValueIdx
import Idealize.ShloMosaic.Lib.ReduceAll

noncomputable section

namespace Cert.Finite

open Idealize.ShloMosaic Cert.Pre_finite_inputs

/-- The rank-0 shape has exactly one index (the empty tuple of coordinates). -/
instance : Subsingleton S_.Idx := ⟨fun a b => funext fun d => d.elim0⟩

/-- The `f32` bit pattern `0x7F800000` (sign 0, exponent all ones, fraction 0) denotes `+∞`. -/
theorem ofBits_inf_f32 : Ideal.ofBits .f32 0x7F800000#32 = (⊤ : EReal) := by
  simp [Ideal.ofBits, Ideal.ieee]

/-- An extended real whose absolute value `max a (-a)` is strictly below `⊤` is a real number:
    at `a = ⊤` the maximum is `⊤`, and at `a = ⊥` it is `-⊥ = ⊤`, neither of which is `< ⊤`. -/
theorem real_of_abs_lt_top (a : EReal) (h : max a (-a) < ⊤) : ∃ r : ℝ, a = (r : EReal) := by
  induction a using EReal.rec with
  | bot => simp at h
  | coe r => exact ⟨r, rfl⟩
  | top => simp at h

/-- One array: if `all (|x| < +∞)` evaluates to true, every entry of `x` is a real number.
    A reduction by `and` into a single result equal to 1 had a 1 at every operand index; at index `i`
    that 1 is the comparison `max (x i) (-(x i)) < ⊤`. -/
theorem real_of_all_lt_inf {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
        (cmpf .olt (Host.absf x) (broadcastInDim s ![] hb (constant S_ .f32 0x7F800000#32)))
        (constantI S_ 1 1#1) hr hu ValueIdx.ix0 = 1#1) :
    ∀ i : s.Idx, ∃ r : ℝ, x i = (r : EReal) := by
  intro i
  have hi := Host.reduce_andi_all _ _ hr hu ValueIdx.ix0 e i
  apply real_of_abs_lt_top
  simp only [cmpf, Host.absf, broadcastInDim, constant, Ideal.hostAbsf_def, Ideal.ofBits_def,
    Ideal.cmpf_def, Ideal.absf_def, ofBits_inf_f32, Ideal.cmp] at hi
  by_contra hc
  rw [decide_eq_false hc] at hi
  exact absurd hi (by decide)

/-- Under the precondition every entry of the three input arrays is a real number. -/
theorem real_of_pre (x0 : FVec Ideal S8192x128 .f32) (x1 x2 : FVec Ideal S256x128 .f32)
    (h : Cert.Pre_finite_inputs.fn (F := Ideal) x0 x1 x2 = fun _ => 1#1) :
    (∀ i : S8192x128.Idx, ∃ r : ℝ, x0 i = (r : EReal)) ∧ (∀ i : S256x128.Idx, ∃ r : ℝ, x1 i = (r : EReal))
      ∧ (∀ i : S256x128.Idx, ∃ r : ℝ, x2 i = (r : EReal)) := by
  -- the predicate's single output word is 1
  have h0 := congrFun h ValueIdx.ix0
  dsimp only [Cert.Pre_finite_inputs.fn] at h0
  -- it is (all₀ ∧ all₁) ∧ all₂ : each conjunct is 1
  obtain ⟨h01, h2⟩ := IntOp.andi_eq_one.1 h0
  obtain ⟨h0', h1⟩ := IntOp.andi_eq_one.1 h01
  exact ⟨real_of_all_lt_inf _ _ _ x0 h0', real_of_all_lt_inf _ _ _ x1 h1, real_of_all_lt_inf _ _ _ x2 h2⟩

end Cert.Finite

end
-- ==== Proof.lean ====
/-
  Diagonal-covariance Mahalanobis soft assignment: for 8192 data rows z_b ∈ ℝ¹²⁸, 256 centroids c_k and
  log-variances l_k, the result is the softmax over k of the logits  L_bk = -1/2 · Σ_d (z_bd - c_kd)² / exp(l_kd).

  The reference computes L_bk literally (a [8192, 256, 128] difference, squared, divided, summed) and applies the
  stable softmax. The kernel completes the square: it forms e = exp(-l), the [256, 256] matrix W = [-1/2·eᵀ ; (c·e)ᵀ]
  and the bias -1/2 · Σ_d c²·e on the host, and per block of 2048 rows computes [z² | z] · W + bias in one matrix product
  followed by the same stable softmax. Over the extended reals the two agree when every input entry is a real number:
  then exp(-l) = 1 / exp(l) and products distribute over the finite sums, which is all that completing the square
  needs (Proof/CompleteSquare.lean, Proof/Bridge.lean); the precondition gives exactly that (Proof/FiniteInputs.lean).
  The softmax is the same function of the logits on both sides (Proof/Softmax.lean, Proof/RefValue.lean), the
  reference's extra maximum with -∞ changing nothing.

  The frames are the generated ones; the idealization rewrote nothing, so the preservation claim is trivial.
-/
import proofs.«136075_j89283780149361_2_alg».proof.Defs
import proofs.«136075_j89283780149361_2_alg».proof.Proof.Gen.Kernel
import proofs.«136075_j89283780149361_2_alg».proof.Proof.Gen.Kernel.Skeleton
import proofs.«136075_j89283780149361_2_alg».proof.Proof.Gen.Kernel.Launch
import proofs.«136075_j89283780149361_2_alg».proof.Proof.Gen.Kernel.Points
import proofs.«136075_j89283780149361_2_alg».proof.Proof.Gen.Kernel.Frame
import proofs.«136075_j89283780149361_2_alg».proof.Proof.Gen.KernelIdeal
import proofs.«136075_j89283780149361_2_alg».proof.Proof.Gen.KernelIdeal.Skeleton
import proofs.«136075_j89283780149361_2_alg».proof.Proof.Gen.KernelIdeal.Launch
import proofs.«136075_j89283780149361_2_alg».proof.Proof.Gen.KernelIdeal.Points
import proofs.«136075_j89283780149361_2_alg».proof.Proof.Gen.KernelIdeal.Frame
import proofs.«136075_j89283780149361_2_alg».proof.Proof.Gen.ReferenceIdeal
import proofs.«136075_j89283780149361_2_alg».proof.Proof.Gen.Pre_finite_inputs
import proofs.«136075_j89283780149361_2_alg».proof.Proof.Gen.KernelIdeal.Value
import proofs.«136075_j89283780149361_2_alg».proof.Proof.Gen.ReferenceIdeal.Run
import proofs.«136075_j89283780149361_2_alg».proof.Proof.Gen.ReferenceIdeal.Read
import proofs.«136075_j89283780149361_2_alg».proof.Proof.KernelValue
import proofs.«136075_j89283780149361_2_alg».proof.Proof.RefValue
import proofs.«136075_j89283780149361_2_alg».proof.Proof.Bridge
import proofs.«136075_j89283780149361_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the softmax of the distance logits of the inputs: the kernel's fused
    logits are the distance logits because the precondition makes every input entry real. -/
theorem algebraic : Cert.algebraic_KernelIdeal_ReferenceIdeal := by
  intro m ρ m' ρ' hpre hagree
  refine ⟨fun c => Cert.Mahal.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.Mahal.kernel_run m ρ)
    obtain ⟨hz, hc, hl⟩ := Cert.Finite.real_of_pre _ _ _ (hpre c)
    exact Cert.Mahal.fusedResult_eq _ _ _ _ _ hz hc hl (Cert.Mahal.weight_upper _ _) (Cert.Mahal.weight_lower _ _)
      (Cert.Mahal.bias_apply _ _)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.Mahal.ref_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
